-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768x768 : Shape := ⟨3, ![32, 768, 768]⟩
abbrev S768x768 : Shape := ⟨2, ![768, 768]⟩
abbrev S768 : Shape := ⟨1, ![768]⟩
abbrev S_ : Shape := ⟨0, ![]⟩

class Facts : Prop where
  bcast_S_S32x768x768 : S_.BroadcastsInDim S32x768x768 (![] : Fin 0 → Fin S32x768x768.rank)
  reducesTo_S32x768x768_S_d0_1_2 : S32x768x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S768x768 .f32) (main_arg5 : FVec F S768 .f32) (main_arg6 : FVec F S768x768 .f32) (main_arg7 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_v33

def fn {F : FTy → Type} [FloatOps F] (main_arg0 : FVec F S32x768x768 .f32) (main_arg1 : FVec F S32x768x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) : IVec S_ 1 :=
  let main_v0 : FVec F S32x768x768 .f32 := Host.absf main_arg0
  let main_cst : FVec F S_ .f32 := constant S_ .f32 0x7F800000#32
  let main_v1 : FVec F S32x768x768 .f32 := broadcastInDim S32x768x768 ![] bcast_S_S32x768x768 main_cst
  let main_v2 : IVec S32x768x768 1 := cmpf .olt main_v0 main_v1
  let main_c : IVec S_ 1 := constantI S_ 1 1#1
  let main_v3 : IVec S_ 1 := (fun x v => Host.reduce IntOp.andi x v reducesTo_S32x768x768_S_d0_1_2 h_S_) main_v2 main_c
  let main_v4 : FVec F S32x768x768 .f32 := Host.absf main_arg1
  let main_cst_0 : FVec F S_ .f32 := constant S_ .f32 0x7F800000#32
  let main_v5 : FVec F S32x768x768 .f32 := broadcastInDim S32x768x768 ![] bcast_S_S32x768x768 main_cst_0
  let main_v6 : IVec S32x768x768 1 := cmpf .olt main_v4 main_v5
  let main_c_1 : IVec S_ 1 := constantI S_ 1 1#1
  let main_v7 : IVec S_ 1 := (fun x v => Host.reduce IntOp.andi x v reducesTo_S32x768x768_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S32x768x768 : Shape := ⟨3, ![32, 768, 768]⟩
abbrev S768x768 : Shape := ⟨2, ![768, 768]⟩
abbrev S768 : Shape := ⟨1, ![768]⟩
abbrev S1x768 : Shape := ⟨2, ![1, 768]⟩
abbrev S1x768x768 : Shape := ⟨3, ![1, 768, 768]⟩
abbrev S768x1 : Shape := ⟨2, ![768, 1]⟩

abbrev nBuf : Space → Nat
  | .hbm => 15
  | .vmem => 12
  | .smem => 0
  | _ => 0

abbrev bufTy : (tb : Table) → Fin (tcTables nBuf tb) → BufTy
  | .hbm, ⟨0, _⟩ => ⟨S32x768x768, .f32⟩
  | .hbm, ⟨1, _⟩ => ⟨S32x768x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768x768, .f32⟩
  | .hbm, ⟨10, _⟩ => ⟨S768x768, .f32⟩
  | .hbm, ⟨11, _⟩ => ⟨S1x768, .f32⟩
  | .hbm, ⟨12, _⟩ => ⟨S1x768, .f32⟩
  | .hbm, ⟨13, _⟩ => ⟨S1x768, .f32⟩
  | .hbm, ⟨14, _⟩ => ⟨S32x768x768, .f32⟩
  | .local _ .vmem, ⟨0, _⟩ => ⟨S1x768x768, .f32⟩
  | .local _ .vmem, ⟨1, _⟩ => ⟨S1x768x768, .f32⟩
  | .local _ .vmem, ⟨2, _⟩ => ⟨S1x768x768, .f32⟩
  | .local _ .vmem, ⟨3, _⟩ => ⟨S1x768x768, .f32⟩
  | .local _ .vmem, ⟨4, _⟩ => ⟨S768x768, .f32⟩
  | .local _ .vmem, ⟨5, _⟩ => ⟨S1x768, .f32⟩
  | .local _ .vmem, ⟨6, _⟩ => ⟨S768x768, .f32⟩
  | .local _ .vmem, ⟨7, _⟩ => ⟨S1x768, .f32⟩
  | .local _ .vmem, ⟨8, _⟩ => ⟨S768x768, .f32⟩
  | .local _ .vmem, ⟨9, _⟩ => ⟨S1x768, .f32⟩
  | .local _ .vmem, ⟨10, _⟩ => ⟨S1x768x768, .f32⟩
  | .local _ .vmem, ⟨11, _⟩ => ⟨S1x768x768, .f32⟩
  | _, _ => ⟨S32x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x768x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S768x768_S768x768_1_0 : S768x768.Transposes [1, 0] S768x768
  shapeCasts_S768_S1x768 : S768.ShapeCasts S1x768
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  bitsLt_bf16_f32 : FTy.bits .bf16 < FTy.bits .f32
  broadcasts_S1x768_S768x768 : S1x768.Broadcasts S768x768
  transposes_S768x768_p1_0_S768x768 : S768x768.Transposes [1, 0] S768x768
  reduces_S768x768_S768 : S768x768.Reduces [1] S768
  shapeCasts_S768_S768x1 : S768.ShapeCasts S768x1
  broadcasts_S768x1_S768x768 : S768x1.Broadcasts S768x768
  shapeCasts_S768x768_S1x768x768 : S768x768.ShapeCasts S1x768x768
  dot_S768x768_S768x768_S768x768_1_0_0_1_n_n_wf : DotDims.WF S768x768 S768x768 S768x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x768.size a ≤ S32x768x768.size a
  hwx0_0 : ∀ i : grid0.Coords, EltTy.bits .f32 = 32 ∨ (Rect.block (s := S32x768x768) S1x768x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x768.size a ≤ S32x768x768.size a
  hwx0_1 : ∀ i : grid0.Coords, EltTy.bits .f32 = 32 ∨ (Rect.block (s := S32x768x768) S1x768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .f32 = 32 ∨ (Rect.block (s := S768x768) S768x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .f32 = 32 ∨ (Rect.block (s := S768x768) S768x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x768x768.size a ≤ S32x768x768.size a
  hwx0_8 : ∀ i : grid0.Coords, EltTy.bits .f32 = 32 ∨ (Rect.block (s := S32x768x768) S1x768x768.size (cc0_transform_8 i) (hinb0_8 i)).WholeWords (EltTy.packing .f32)

variable [Facts₀]

def dot_S768x768_S768x768_S768x768_1_0_0_1_n_n : DotDims S768x768 S768x768 S768x768 where
  lhsContracting := [1]
  rhsContracting := [0]
  lhsNonContracting := [0]
  rhsNonContracting := [1]
  lhsBatch := []
  rhsBatch := []
  wf := dot_S768x768_S768x768_S768x768_1_0_0_1_n_n_wf

abbrev win0_0 : Pipeline.Window sig grid0 :=
  Pipeline.Window.ofSpec (Memref.whole main_arg0) S1x768x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x768x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x768x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x768x768 : Shape := ⟨3, ![32, 768, 768]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S32x768 : Shape := ⟨2, ![32, 768]⟩
abbrev S32x768x1 : Shape := ⟨3, ![32, 768, 1]⟩

abbrev nBuf : Space → Nat
  | .hbm => 94
  | .vmem => 0
  | .smem => 0
  | _ => 0

abbrev bufTy : (tb : Table) → Fin (tcTables nBuf tb) → BufTy
  | .hbm, ⟨0, _⟩ => ⟨S32x768x768, .f32⟩
  | .hbm, ⟨1, _⟩ => ⟨S32x768x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S32x768x768, .f32⟩
  | .hbm, ⟨9, _⟩ => ⟨S1x1x768, .f32⟩
  | .hbm, ⟨10, _⟩ => ⟨S32x768x768, .f32⟩
  | .hbm, ⟨11, _⟩ => ⟨S32x768x768, .f32⟩
  | .hbm, ⟨12, _⟩ => ⟨S32x768x768, .f32⟩
  | .hbm, ⟨13, _⟩ => ⟨S1x1x768, .f32⟩
  | .hbm, ⟨14, _⟩ => ⟨S32x768x768, .f32⟩
  | .hbm, ⟨15, _⟩ => ⟨S32x768x768, .f32⟩
  | .hbm, ⟨16, _⟩ => ⟨S32x768x768, .f32⟩
  | .hbm, ⟨17, _⟩ => ⟨S32x768x768, .f32⟩
  | .hbm, ⟨18, _⟩ => ⟨S32x768x768, .f32⟩
  | .hbm, ⟨19, _⟩ => ⟨S_, .f32⟩
  | .hbm, ⟨20, _⟩ => ⟨S32x768, .f32⟩
  | .hbm, ⟨21, _⟩ => ⟨S_, .f32⟩
  | .hbm, ⟨22, _⟩ => ⟨S32x768, .f32⟩
  | .hbm, ⟨23, _⟩ => ⟨S32x768, .f32⟩
  | .hbm, ⟨24, _⟩ => ⟨S32x768x1, .f32⟩
  | .hbm, ⟨25, _⟩ => ⟨S32x768x768, .f32⟩
  | .hbm, ⟨26, _⟩ => ⟨S32x768x768, .f32⟩
  | .hbm, ⟨27, _⟩ => ⟨S32x768x768, .f32⟩
  | .hbm, ⟨28, _⟩ => ⟨S_, .f32⟩
  | .hbm, ⟨29, _⟩ => ⟨S32x768, .f32⟩
  | .hbm, ⟨30, _⟩ => ⟨S32x768x1, .f32⟩
  | .hbm, ⟨31, _⟩ => ⟨S32x768x768, .f32⟩
  | .hbm, ⟨32, _⟩ => ⟨S32x768x768, .f32⟩
  | .hbm, ⟨33, _⟩ => ⟨S32x768x768, .f32⟩
  | .hbm, ⟨34, _⟩ => ⟨S32x768x768, .f32⟩
  | .hbm, ⟨35, _⟩ => ⟨S32x768x768, .f32⟩
  | .hbm, ⟨36, _⟩ => ⟨S1x1x768, .f32⟩
  | .hbm, ⟨37, _⟩ => ⟨S32x768x768, .f32⟩
  | .hbm, ⟨38, _⟩ => ⟨S32x768x768, .f32⟩
  | .hbm, ⟨39, _⟩ => ⟨S32x768x768, .f32⟩
  | .hbm, ⟨40, _⟩ => ⟨S32x768x768, .f32⟩
  | .hbm, ⟨41, _⟩ => ⟨S1x1x768, .f32⟩
  | .hbm, ⟨42, _⟩ => ⟨S32x768x768, .f32⟩
  | .hbm, ⟨43, _⟩ => ⟨S32x768x768, .f32⟩
  | .hbm, ⟨44, _⟩ => ⟨S32x768x768, .f32⟩
  | .hbm, ⟨45, _⟩ => ⟨S32x768x768, .f32⟩
  | .hbm, ⟨46, _⟩ => ⟨S_, .f32⟩
  | .hbm, ⟨47, _⟩ => ⟨S32x768, .f32⟩
  | .hbm, ⟨48, _⟩ => ⟨S_, .f32⟩
  | .hbm, ⟨49, _⟩ => ⟨S32x768, .f32⟩
  | .hbm, ⟨50, _⟩ => ⟨S32x768, .f32⟩
  | .hbm, ⟨51, _⟩ => ⟨S32x768x1, .f32⟩
  | .hbm, ⟨52, _⟩ => ⟨S32x768x768, .f32⟩
  | .hbm, ⟨53, _⟩ => ⟨S32x768x768, .f32⟩
  | .hbm, ⟨54, _⟩ => ⟨S32x768x768, .f32⟩
  | .hbm, ⟨55, _⟩ => ⟨S_, .f32⟩
  | .hbm, ⟨56, _⟩ => ⟨S32x768, .f32⟩
  | .hbm, ⟨57, _⟩ => ⟨S32x768x1, .f32⟩
  | .hbm, ⟨58, _⟩ => ⟨S32x768x768, .f32⟩
  | .hbm, ⟨59, _⟩ => ⟨S32x768x768, .f32⟩
  | .hbm, ⟨60, _⟩ => ⟨S32x768x768, .f32⟩
  | .hbm, ⟨61, _⟩ => ⟨S32x768x768, .f32⟩
  | .hbm, ⟨62, _⟩ => ⟨S32x768x768, .f32⟩
  | .hbm, ⟨63, _⟩ => ⟨S1x1x768, .f32⟩
  | .hbm, ⟨64, _⟩ => ⟨S32x768x768, .f32⟩
  | .hbm, ⟨65, _⟩ => ⟨S32x768x768, .f32⟩
  | .hbm, ⟨66, _⟩ => ⟨S32x768x768, .f32⟩
  | .hbm, ⟨67, _⟩ => ⟨S32x768x768, .f32⟩
  | .hbm, ⟨68, _⟩ => ⟨S1x1x768, .f32⟩
  | .hbm, ⟨69, _⟩ => ⟨S32x768x768, .f32⟩
  | .hbm, ⟨70, _⟩ => ⟨S32x768x768, .f32⟩
  | .hbm, ⟨71, _⟩ => ⟨S32x768x768, .f32⟩
  | .hbm, ⟨72, _⟩ => ⟨S32x768x768, .f32⟩
  | .hbm, ⟨73, _⟩ => ⟨S_, .f32⟩
  | .hbm, ⟨74, _⟩ => ⟨S32x768, .f32⟩
  | .hbm, ⟨75, _⟩ => ⟨S_, .f32⟩
  | .hbm, ⟨76, _⟩ => ⟨S32x768, .f32⟩
  | .hbm, ⟨77, _⟩ => ⟨S32x768, .f32⟩
  | .hbm, ⟨78, _⟩ => ⟨S32x768x1, .f32⟩
  | .hbm, ⟨79, _⟩ => ⟨S32x768x768, .f32⟩
  | .hbm, ⟨80, _⟩ => ⟨S32x768x768, .f32⟩
  | .hbm, ⟨81, _⟩ => ⟨S32x768x768, .f32⟩
  | .hbm, ⟨82, _⟩ => ⟨S_, .f32⟩
  | .hbm, ⟨83, _⟩ => ⟨S32x768, .f32⟩
  | .hbm, ⟨84, _⟩ => ⟨S32x768x1, .f32⟩
  | .hbm, ⟨85, _⟩ => ⟨S32x768x768, .f32⟩
  | .hbm, ⟨86, _⟩ => ⟨S32x768x768, .f32⟩
  | .hbm, ⟨87, _⟩ => ⟨S32x768x768, .f32⟩
  | .hbm, ⟨88, _⟩ => ⟨S32x768x768, .f32⟩
  | .hbm, ⟨89, _⟩ => ⟨S32x768x768, .f32⟩
  | .hbm, ⟨90, _⟩ => ⟨S1x1x768, .f32⟩
  | .hbm, ⟨91, _⟩ => ⟨S32x768x768, .f32⟩
  | .hbm, ⟨92, _⟩ => ⟨S32x768x768, .f32⟩
  | .hbm, ⟨93, _⟩ => ⟨S32x768x768, .f32⟩
  | _, _ => ⟨S32x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_5 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S32x768x768_0_1_2 : S1x1x768.BroadcastsInDim S32x768x768 (![0, 1, 2] : Fin 3 → Fin S32x768x768.rank)
  transposes_S32x768x768_S32x768x768_0_2_1 : S32x768x768.Transposes [0, 2, 1] S32x768x768
  reducesTo_S32x768x768_S32x768_d2 : S32x768x768.ReducesTo [2] S32x768
  h_S_ : 0 < S_.numel
  bcast_S_S32x768 : S_.BroadcastsInDim S32x768 (![] : Fin 0 → Fin S32x768.rank)
  bcast_S32x768_S32x768x1_0_1 : S32x768.BroadcastsInDim S32x768x1 (![0, 1] : Fin 2 → Fin S32x768x1.rank)
  bcast_S32x768x1_S32x768x768_0_1_2 : S32x768x1.BroadcastsInDim S32x768x768 (![0, 1, 2] : Fin 3 → Fin S32x768x768.rank)
  dot_S32x768x768_S768x768_S32x768x768_2_1_01_0_n_n_wf : DotDims.WF S32x768x768 S768x768 S32x768x768 [2] [1] [0, 1] [0] [] []
  dot_S32x768x768_S32x768x768_S32x768x768_2_1_1_2_0_0_wf : DotDims.WF S32x768x768 S32x768x768 S32x768x768 [2] [1] [1] [2] [0] [0]

variable [Facts₀]

def dot_S32x768x768_S768x768_S32x768x768_2_1_01_0_n_n : DotDims S32x768x768 S768x768 S32x768x768 where
  lhsContracting := [2]
  rhsContracting := [1]
  lhsNonContracting := [0, 1]
  rhsNonContracting := [0]
  lhsBatch := []
  rhsBatch := []
  wf := dot_S32x768x768_S768x768_S32x768x768_2_1_01_0_n_n_wf
def dot_S32x768x768_S32x768x768_S32x768x768_2_1_1_2_0_0 : DotDims S32x768x768 S32x768x768 S32x768x768 where
  lhsContracting := [2]
  rhsContracting := [1]
  lhsNonContracting := [1]
  rhsNonContracting := [2]
  lhsBatch := [0]
  rhsBatch := [0]
  wf := dot_S32x768x768_S32x768x768_S32x768x768_2_1_1_2_0_0_wf

class Facts : Prop extends Facts₀ where

variable [Facts]
-- ==== Proof.Spec.lean ====
/-
  One batch member of the co-attention computation, as mathematics on 768 × 768 matrices of extended reals.

  Both programs treat the 32 batch members independently, and on each member compute the same chain: a linear layer
  is a matrix product with a (pre-transposed) weight plus a bias row; the attention scores are products of such
  layers' transposes; a softmax along each row subtracts the row's maximum, exponentiates, and divides by the row's
  sum; each of the three blocks ends with a linear layer plus a residual. Here every step is one definition over
  explicit matrix entries, so that the kernel's per-block payload and the reference's stacked host operations can each
  be shown equal to it, entry by entry.

  Conventions: a weight is taken already transposed (entry (k, e) multiplies input column k into output column e),
  as the kernel receives it; a bias is a one-row matrix.
-/
import Idealize.ShloMosaic.PureOps.Ideal
import Idealize.ShloMosaic.Lib.ValueIdx

noncomputable section

open scoped BigOperators

namespace Cert.Coatt

open Idealize.ShloMosaic Idealize.ShloMosaic.ValueIdx

/-- A 768 × 768 matrix of extended reals, indexed as a `[768, 768]` array. -/
abbrev Mat : Type := (⟨2, ![768, 768]⟩ : Shape).Idx → EReal
/-- A one-row matrix `[1, 768]`. -/
abbrev Row : Type := (⟨2, ![1, 768]⟩ : Shape).Idx → EReal

/-- The matrix product: entry (p, q) is the sum over k of x(p, k) · y(k, q). -/
def mm (x y : Mat) : Mat := fun j => ∑ k : Fin 768, x (ix2 (j 0) k) * y (ix2 k (j 1))
/-- The transpose: entry (p, q) is x(q, p). -/
def tr (x : Mat) : Mat := fun j => x (ix2 (j 1) (j 0))
/-- A row added to every row of a matrix. -/
def addRow (x : Mat) (b : Row) : Mat := fun j => x j + b (ix2 (0 : Fin 1) (j 1))
/-- The entrywise sum. -/
def add (x y : Mat) : Mat := fun j => x j + y j
/-- A linear layer: the product with the (transposed) weight, plus the bias row. -/
def lin (x w : Mat) (b : Row) : Mat := addRow (mm x w) b
/-- The maximum of row p, from the bottom element. -/
def rowMax (x : Mat) (p : Fin 768) : EReal := (Finset.univ : Finset (Fin 768)).fold max ⊥ (fun k => x (ix2 p k))
/-- Each entry less its row's maximum, exponentiated. -/
def expShift (x : Mat) : Mat := fun j => Ideal.exp (x j - rowMax x (j 0))
/-- Each entry divided by its row's sum. -/
def rowNorm (e : Mat) : Mat := fun j => Ideal.div (e j) (∑ k : Fin 768, e (ix2 (j 0) k))
/-- The softmax along each row. -/
def softmax (x : Mat) : Mat := rowNorm (expShift x)

/-- The projected features, transposed: the transpose of a linear layer of the input. -/
def proj (x w : Mat) (b : Row) : Mat := tr (lin x w b)
/-- The co-attention block: the scores lo · io, their softmax, io times it, transposed, through the linear layer,
    plus the residual lo. -/
def coBlock (lo io w : Mat) (b : Row) : Mat := add (lin (tr (mm io (softmax (mm lo io)))) w b) lo
/-- The self-attention block on co. -/
def saBlock (co w : Mat) (b : Row) : Mat := add (lin (tr (mm (softmax (mm (proj co w b) (proj co w b))) co)) w b) co
/-- The cross-attention block on sa against io. -/
def xaBlock (sa io w : Mat) (b : Row) : Mat := add (lin (tr (mm (softmax (mm (proj sa w b) io)) io)) w b) sa

/-- One batch member's result, from the member's two inputs, the three transposed weights and the three bias rows. -/
def member (x0 x1 w2 : Mat) (b3 : Row) (w4 : Mat) (b5 : Row) (w6 : Mat) (b7 : Row) : Mat :=
  xaBlock (saBlock (coBlock (proj x0 w2 b3) (proj x1 w2 b3) w2 b3) w4 b5) (proj x1 w2 b3) w6 b7

end Cert.Coatt

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.KernelMember.lean ====
/-
  The kernel's side of one batch member: the value the kernel body stores into its output block, as a function of
  the eight blocks it loads, is `Coatt.member` of them — the two [1, 768, 768] input blocks read as matrices, the
  three weight blocks (already transposed by the host) and the three bias rows — written back with a leading unit
  axis.
-/
import proofs.«167463_j70342974373949_1_alg».proof.Proof.Spec
import proofs.«167463_j70342974373949_1_alg».proof.Proof.LibLayout
import proofs.«167463_j70342974373949_1_alg».proof.Proof.LibMatmulSum
import proofs.«167463_j70342974373949_1_alg».proof.Proof.Gen.KernelIdeal.Skeleton
import Idealize.ShloMosaic.Lib.ValueLayout
import Idealize.ShloMosaic.Lib.Pipeline.Value
import Idealize.ShloMosaic.PureOps.Ideal.Laws

noncomputable section

open scoped BigOperators

namespace Cert.Coatt.KernelSide

open Idealize.ShloMosaic Idealize.ShloMosaic.ValueIdx Cert.KernelIdeal Cert.KernelIdeal.Gen Cert.Coatt

/-! ## Each operation pattern of the kernel body, as the matching definition of the specification

Every lemma is an equality of whole matrices over arbitrary operands, proved entry by entry: at the extended reals a
change of float format is the identity, an elementwise operation at an index is the scalar operation on the operands
there, and a layout operation reads one entry of its operand. -/

/-- The f32 bit pattern of minus infinity denotes the bottom element of the extended reals. -/
theorem ofBits_neg_inf : Ideal.ofBits .f32 0xFF800000#32 = (⊥ : EReal) := by
  simp [Ideal.ofBits, Ideal.ieee]

/-- A product accumulated into the zero matrix is the matrix product, whatever formats label the operands. -/
theorem matmul_eq {φ₁ φ₂ : FTy} (x : FVec Ideal S768x768 φ₁) (y : FVec Ideal S768x768 φ₂) :
    matmul dot_S768x768_S768x768_S768x768_1_0_0_1_n_n none x y (constant S768x768 .f32 0x00000000#32) = mm x y :=
  funext fun j => MatmulSum.matmul_zero_apply dot_S768x768_S768x768_S768x768_1_0_0_1_n_n rfl rfl rfl rfl rfl rfl none x y j

/-- The same with both operands first narrowed to bf16, which changes nothing. -/
theorem matmul_trunc_eq (x y : FVec Ideal S768x768 .f32) :
    matmul dot_S768x768_S768x768_S768x768_1_0_0_1_n_n none (truncf .bf16 x bitsLt_bf16_f32)
      (truncf .bf16 y bitsLt_bf16_f32) (constant S768x768 .f32 0x00000000#32) = mm x y :=
  matmul_eq (truncf .bf16 x bitsLt_bf16_f32) (truncf .bf16 y bitsLt_bf16_f32)

/-- The transposition of a matrix. -/
theorem transpose_eq (x : FVec Ideal S768x768 .f32) :
    transpose S768x768 [1, 0] x transposes_S768x768_p1_0_S768x768 = tr x := by
  funext j
  obtain ⟨p, q, rfl⟩ : ∃ (p : Fin 768) (q : Fin 768), j = ix2 p q := ⟨j 0, j 1, eq_ix2 j⟩
  exact transpose_ix2_apply x transposes_S768x768_p1_0_S768x768 p q

/-- Adding a row broadcast down the rows. -/
theorem addf_broadcast_eq (x : FVec Ideal S768x768 .f32) (b : FVec Ideal S1x768 .f32) :
    addf x (broadcastTo S768x768 b broadcasts_S1x768_S768x768) = addRow x b := by
  funext j
  obtain ⟨p, q, rfl⟩ : ∃ (p : Fin 768) (q : Fin 768), j = ix2 p q := ⟨j 0, j 1, eq_ix2 j⟩
  exact congrArg (x (ix2 p q) + ·) (broadcastTo_1b_ab_apply b broadcasts_S1x768_S768x768 p q)

/-- The entrywise sum. -/
theorem addf_eq (x y : FVec Ideal S768x768 .f32) : addf x y = add x y := rfl

/-- The index over row p with coordinate k inserted on the reduced axis is (p, k). -/
theorem lift_eq (p k : Fin 768) :
    (reduces_S768x768_S768 : S768x768.Reduces [1] S768).lift (ix1 p) k = ix2 p k :=
  funext fun c => Fin.ext (by
    match c with
    | ⟨0, _⟩ => rfl
    | ⟨1, _⟩ => rfl)

/-- A column of per-row values, broadcast along the rows, reads the row's value at every entry. -/
theorem column_apply (v : FVec Ideal S768 .f32) (p q : Fin 768) :
    broadcastTo S768x768 (shapeCast S768x1 v shapeCasts_S768_S768x1) broadcasts_S768x1_S768x768 (ix2 p q) = v (ix1 p) :=
  (LibLayout.broadcastTo_a1_ab_apply _ broadcasts_S768x1_S768x768 p q).trans
    (LibLayout.shapeCast_a_a1_apply v shapeCasts_S768_S768x1 p)

/-- The maximum reduction of the rows, from minus infinity, at row p. -/
theorem rowMax_eq (x : FVec Ideal S768x768 .f32) (p : Fin 768) :
    multiReduction .maximumf [1] S768 x 0xFF800000#32 reduces_S768x768_S768 (.inl rfl) rfl (ix1 p) = rowMax x p := by
  refine (Ideal.multiReduction_maximumf_single x _ reduces_S768x768_S768 (.inl rfl) rfl (ix1 p)).trans ?_
  have hf : (x ∘ (reduces_S768x768_S768 : S768x768.Reduces [1] S768).lift (ix1 p)) = fun k : Fin 768 => x (ix2 p k) :=
    funext fun k => congrArg x (lift_eq p k)
  rw [hf]
  exact congrArg (fun a => (Finset.univ : Finset (Fin 768)).fold max a fun k => x (ix2 p k)) ofBits_neg_inf

/-- The sum reduction of the rows, from zero, at row p. -/
theorem rowSum_eq (e : FVec Ideal S768x768 .f32) (p : Fin 768) :
    multiReduction .add [1] S768 e 0x00000000#32 reduces_S768x768_S768 (.inl rfl) rfl (ix1 p)
      = ∑ k : Fin 768, e (ix2 p k) := by
  refine (Ideal.multiReduction_add_single e _ reduces_S768x768_S768 (.inl rfl) rfl (ix1 p)).trans ?_
  exact Finset.sum_congr rfl fun k _ => congrArg e (lift_eq p k)

/-- Subtracting each row's maximum and exponentiating. -/
theorem expShift_eq (x : FVec Ideal S768x768 .f32) :
    exp (subf x (broadcastTo S768x768 (shapeCast S768x1
        (multiReduction .maximumf [1] S768 x 0xFF800000#32 reduces_S768x768_S768 (.inl rfl) rfl) shapeCasts_S768_S768x1)
        broadcasts_S768x1_S768x768)) = expShift x := by
  funext j
  obtain ⟨p, q, rfl⟩ : ∃ (p : Fin 768) (q : Fin 768), j = ix2 p q := ⟨j 0, j 1, eq_ix2 j⟩
  exact congrArg (fun m => Ideal.exp (x (ix2 p q) - m)) ((column_apply _ p q).trans (rowMax_eq x p))

/-- Dividing each row by its sum. -/
theorem rowNorm_eq (e : FVec Ideal S768x768 .f32) :
    divf e (broadcastTo S768x768 (shapeCast S768x1
        (multiReduction .add [1] S768 e 0x00000000#32 reduces_S768x768_S768 (.inl rfl) rfl) shapeCasts_S768_S768x1)
        broadcasts_S768x1_S768x768) = rowNorm e := by
  funext j
  obtain ⟨p, q, rfl⟩ : ∃ (p : Fin 768) (q : Fin 768), j = ix2 p q := ⟨j 0, j 1, eq_ix2 j⟩
  exact congrArg (fun m => Ideal.div (e (ix2 p q)) m) ((column_apply _ p q).trans (rowSum_eq e p))

/-! ## Each payload of the kernel body as a term of the specification -/

section Payloads
variable (x0 x1 : Vec Ideal S1x768x768 .f32) (w : Vec Ideal S768x768 .f32) (b : Vec Ideal S1x768 .f32)

/-- A loaded weight, cast to its own shape. -/
theorem pay2_eq : k0_pay2 w = w := shapeCast_self w _
/-- A loaded bias row, cast to its own shape. -/
theorem pay3_eq : k0_pay3 b = b := shapeCast_self b _
/-- The second and third weights and bias rows likewise. -/
theorem pay4_eq : k0_pay4 w = w := shapeCast_self w _
theorem pay5_eq : k0_pay5 b = b := shapeCast_self b _
theorem pay6_eq : k0_pay6 w = w := shapeCast_self w _
theorem pay7_eq : k0_pay7 b = b := shapeCast_self b _

/-- The first projected features: the transposed linear layer of the first input block. -/
theorem pay8_eq : k0_pay8 x0 w b = proj (shapeCast S768x768 x0 shapeCasts_S1x768x768_S768x768) w b := by
  unfold k0_pay8
  rw [pay2_eq, pay3_eq]
  simp only [matmul_trunc_eq, addf_broadcast_eq, transpose_eq]
  rfl

/-- The second projected features. -/
theorem pay9_eq : k0_pay9 x1 w b = proj (shapeCast S768x768 x1 shapeCasts_S1x768x768_S768x768) w b := by
  unfold k0_pay9
  rw [pay2_eq, pay3_eq]
  simp only [matmul_trunc_eq, addf_broadcast_eq, transpose_eq]
  rfl

/-- The co-attention scores, less each row's maximum, exponentiated. -/
theorem pay10_eq : k0_pay10 x0 x1 w b = expShift (mm (k0_pay8 x0 w b) (k0_pay9 x1 w b)) := by
  unfold k0_pay10
  simp only [matmul_trunc_eq]
  exact expShift_eq _

end Payloads

section Blocks
variable (v5 : FVec Ideal S768x768 .f32) (v7 : FVec Ideal S1x768 .f32) (v9 : FVec Ideal S768x768 .f32)
  (v11 : FVec Ideal S1x768 .f32) (v13 : FVec Ideal S768x768 .f32) (v15 : FVec Ideal S1x768 .f32)
  (v26 v27 v35 v77 : FVec Ideal S768x768 .f32)

/-- The co-attention block from the exponentiated scores, then the self-attention block on it. -/
theorem pay11_eq : k0_pay11 v5 v7 v9 v11 v26 v27 v35
    = saBlock (add (lin (tr (mm v27 (rowNorm v35))) v5 v7) v26) v9 v11 := by
  unfold k0_pay11
  simp only [matmul_trunc_eq, addf_broadcast_eq, transpose_eq]
  rw [rowNorm_eq v35, expShift_eq, rowNorm_eq]
  simp only [addf_eq]
  rfl

/-- The projected features of the self-attention block's result. -/
theorem pay12_eq : k0_pay12 v5 v7 v9 v11 v13 v15 v26 v27 v35 = proj (k0_pay11 v5 v7 v9 v11 v26 v27 v35) v13 v15 := by
  unfold k0_pay12
  simp only [matmul_trunc_eq, addf_broadcast_eq, transpose_eq]
  rfl

/-- The second projected features again: narrowing to bf16 changes nothing. -/
theorem pay13_eq : k0_pay13 v27 = v27 := rfl

/-- The cross-attention block, written back with a leading unit axis. -/
theorem pay1_eq (v84 v85 : FVec Ideal S768x768 .bf16) :
    k0_pay1 v13 v15 v27 v77 v84 v85 (constant S768x768 .f32 0x00000000#32)
      = shapeCast S1x768x768 (add (lin (tr (mm (softmax (mm v84 v85)) v27)) v13 v15) v77) shapeCasts_S768x768_S1x768x768 := by
  unfold k0_pay1
  simp only [matmul_eq, matmul_trunc_eq, addf_broadcast_eq, transpose_eq]
  rw [expShift_eq, rowNorm_eq]
  simp only [addf_eq]
  rfl

end Blocks

/-- The one store's value, as the kernel body computes it from the blocks it loaded. -/
def kpay (x0 x1 : Vec Ideal S1x768x768 .f32) (x2 : Vec Ideal S768x768 .f32) (x3 : Vec Ideal S1x768 .f32)
    (x4 : Vec Ideal S768x768 .f32) (x5 : Vec Ideal S1x768 .f32) (x6 : Vec Ideal S768x768 .f32)
    (x7 : Vec Ideal S1x768 .f32) : FVec Ideal S1x768x768 .f32 :=
  k0_pay1 (k0_pay6 x6) (k0_pay7 x7) (k0_pay9 x1 x2 x3) (k0_pay11 (k0_pay2 x2) (k0_pay3 x3) (k0_pay4 x4) (k0_pay5 x5) (k0_pay8 x0 x2 x3) (k0_pay9 x1 x2 x3) (k0_pay10 x0 x1 x2 x3)) (k0_pay12 (k0_pay2 x2) (k0_pay3 x3) (k0_pay4 x4) (k0_pay5 x5) (k0_pay6 x6) (k0_pay7 x7) (k0_pay8 x0 x2 x3) (k0_pay9 x1 x2 x3) (k0_pay10 x0 x1 x2 x3)) (k0_pay13 (k0_pay9 x1 x2 x3)) (constant S768x768 .f32 0x00000000#32)

/-- The stored value is the member's result with a leading unit axis. -/
theorem kernel_member (x0 x1 : Vec Ideal S1x768x768 .f32) (x2 : Vec Ideal S768x768 .f32) (x3 : Vec Ideal S1x768 .f32)
    (x4 : Vec Ideal S768x768 .f32) (x5 : Vec Ideal S1x768 .f32) (x6 : Vec Ideal S768x768 .f32)
    (x7 : Vec Ideal S1x768 .f32) :
    kpay x0 x1 x2 x3 x4 x5 x6 x7
      = shapeCast S1x768x768
          (member (shapeCast S768x768 x0 shapeCasts_S1x768x768_S768x768) (shapeCast S768x768 x1 shapeCasts_S1x768x768_S768x768)
            x2 x3 x4 x5 x6 x7)
          shapeCasts_S768x768_S1x768x768 := by
  unfold kpay
  rw [pay1_eq, pay12_eq, pay13_eq, pay11_eq, pay10_eq, pay8_eq, pay9_eq, pay2_eq, pay3_eq, pay4_eq, pay5_eq, pay6_eq,
    pay7_eq]
  rfl

end Cert.Coatt.KernelSide

end
-- ==== Proof.Whole.lean ====
/-
  The whole result array: 32 batch members side by side, each the member computation on its own slice of the two
  stacked inputs, with the weights and biases shared.
-/
import proofs.«167463_j70342974373949_1_alg».proof.Proof.Spec
import Idealize.ShloMosaic.Lib.StackMember

noncomputable section

namespace Cert.Coatt

open Idealize.ShloMosaic Idealize.ShloMosaic.ValueIdx Idealize.ShloMosaic.StackMember

/-- A stack of 32 matrices, indexed as a `[32, 768, 768]` array. -/
abbrev Stack : Type := (⟨3, ![32, 768, 768]⟩ : Shape).Idx → EReal

/-- The whole output: at (g, p, q), entry (p, q) of the member computation on member g of the two stacks. -/
def whole (A0 A1 : Stack) (w2 : Mat) (b3 : Row) (w4 : Mat) (b5 : Row) (w6 : Mat) (b7 : Row) : Stack :=
  fun i => member (memberAt (d := ![768, 768]) A0 (i 0)) (memberAt (d := ![768, 768]) A1 (i 0)) w2 b3 w4 b5 w6 b7
    (ix2 (i 1) (i 2))

/-- Member g of the whole output is the member computation on member g of the inputs. -/
theorem memberAt_whole (A0 A1 : Stack) (w2 : Mat) (b3 : Row) (w4 : Mat) (b5 : Row) (w6 : Mat) (b7 : Row) (g : Fin 32) :
    memberAt (d := ![768, 768]) (whole A0 A1 w2 b3 w4 b5 w6 b7) g
      = member (memberAt (d := ![768, 768]) A0 g) (memberAt (d := ![768, 768]) A1 g) w2 b3 w4 b5 w6 b7 := by
  funext j
  obtain ⟨p, q, rfl⟩ : ∃ (p q : Fin 768), j = ix2 p q := ⟨j 0, j 1, eq_ix2 j⟩
  rw [memberAt_apply, cons_ix2]
  rfl

end Cert.Coatt

end
-- ==== Proof.KernelArray.lean ====
/-
  From blocks to the array. The kernel runs once per batch member: grid point t loads member t of the two stacked
  inputs (a [1, 768, 768] block each), the three transposed weights and the three bias rows whole, and writes member t
  of the output. So the output array after the run is, at (g, p, q), entry (p, q) of `Coatt.member` of member g of the
  inputs: one function of the arrays the region finds, which the 32 written blocks cover.
-/
import proofs.«167463_j70342974373949_1_alg».proof.Proof.Gen.KernelIdeal.Value
import proofs.«167463_j70342974373949_1_alg».proof.Proof.KernelMember
import proofs.«167463_j70342974373949_1_alg».proof.Proof.Whole
import Idealize.ShloMosaic.Lib.StackMember
import Idealize.ShloMosaic.Lib.ValueLayout
import Idealize.ShloMosaic.Lib.Pipeline.Value
import Idealize.ShloMosaic.Lib.StableHlo.Run

noncomputable section

namespace Cert.Coatt.KernelArray

open Cert.KernelIdeal Cert.KernelIdeal.Gen Cert.KernelIdeal.Value
open Idealize.ShloMosaic Idealize.ShloMosaic.TcCoe Idealize.SL.Sem Idealize.ShloMosaic.ValueIdx Idealize.ShloMosaic.StackMember
open Idealize.ShloMosaic.Pipeline (Dat)
open Cert.Coatt Cert.Coatt.KernelSide

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the two stacked inputs and the output move together along the batch axis,
    block index (t, 0, 0); the weights and biases stay at block (0, 0). -/
theorem idx_facts : ∀ t : Fin cfg0.N,
    win0_0.index t (0 : Fin 3) = win0_8.index t (0 : Fin 3) ∧ win0_0.index t (1 : Fin 3) = 0 ∧ win0_0.index t (2 : Fin 3) = 0
    ∧ win0_1.index t (0 : Fin 3) = win0_8.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) ≤ 31 ∧ win0_8.index t (1 : Fin 3) = 0 ∧ win0_8.index t (2 : Fin 3) = 0 :=
  (by decide +kernel : ∀ t : Fin grid0.N, _)

/-- Every batch member is some point's output block. -/
theorem idx_onto : ∀ q0 : Fin 32, ∃ t : Fin cfg0.N, win0_8.index t = ![q0.val, 0, 0] :=
  (by decide +kernel : ∀ q0 : Fin 32, ∃ t : Fin grid0.N, win0_8.index t = ![q0.val, 0, 0])

/-- A [1, 768, 768] block whose entry (0, p, q) is entry (g, p, q) of a stack, read as a matrix, is member g. -/
theorem blockMat (A : S32x768x768.Idx → EReal) (blk : S1x768x768.Idx → EReal) (g : Fin 32)
    (h : ∀ p q : Fin 768, blk (ix3 (0 : Fin 1) p q) = A (ix3 g p q)) :
    shapeCast S768x768 blk shapeCasts_S1x768x768_S768x768 = memberAt (d := ![768, 768]) A g := by
  funext j
  obtain ⟨p, q, rfl⟩ : ∃ (p q : Fin 768), j = ix2 p q := ⟨j 0, j 1, eq_ix2 j⟩
  rw [memberAt_apply, cons_ix2]
  exact (shapeCast_1ab_ab_apply blk _ p q).trans (h p q)

/-- What point t writes back is block t of `whole` of the arrays as the region finds them. -/
theorem flushed_eq (c : Dev nD) (t : Fin cfg0.N) :
    (dats m 0 c).flushed 8 t = ((cfg0.win 8).blk t).view.read (Elt Ideal)
      (whole (V m c main_arg0) (V m c main_arg1) (V m c main_v0) (V m c main_v3) (V m c main_v1) (V m c main_v4)
        (V m c main_v2) (V m c main_v5)) := by
  rw [flushed8]
  unfold out0_8
  rw [View.canon_unit_zero hz3]
  simp only [View.ld_unit_zero (S := S1x768x768) hz3, View.ld_unit_zero (S := S768x768) hz2, View.ld_unit_zero (S := S1x768) hz2]
  refine (congrArg ((win0 8).cut (grid0.coords t)) (kernel_member (iblk m c 0 t) (iblk m c 1 t) (iblk m c 2 t) (iblk m c 3 t)
    (iblk m c 4 t) (iblk m c 5 t) (iblk m c 6 t) (iblk m c 7 t))).trans ?_
  funext (y : S1x768x768.Idx)
  show shapeCast S1x768x768 (member (shapeCast S768x768 (iblk m c 0 t) shapeCasts_S1x768x768_S768x768)
      (shapeCast S768x768 (iblk m c 1 t) shapeCasts_S1x768x768_S768x768) (iblk m c 2 t) (iblk m c 3 t) (iblk m c 4 t)
      (iblk m c 5 t) (iblk m c 6 t) (iblk m c 7 t)) shapeCasts_S768x768_S1x768x768 y
    = whole (V m c main_arg0) (V m c main_arg1) (V m c main_v0) (V m c main_v3) (V m c main_v1) (V m c main_v4)
        (V m c main_v2) (V m c main_v5) (((cfg0.win 8).blk t).view.emb y)
  obtain ⟨e00, e01, e02, e10, e11, e12, e20, e21, e30, e31, e40, e41, e50, e51, e60, e61, e70, e71, e8le, e81, e82⟩ := idx_facts t
  obtain ⟨z, p, q, rfl⟩ : ∃ (z : Fin 1) (p q : Fin 768), y = ix3 z p q := ⟨y 0, y 1, y 2, eq_ix3 y⟩
  have hzv : z.val = 0 := by omega
  have hp : p.val < 768 := p.isLt
  have hq : q.val < 768 := q.isLt
  -- the output block's place in the array: batch member (index of t), row p, column q
  have hemb : ((cfg0.win 8).blk t).view.emb (ix3 z p q) = ix3 (⟨win0_8.index t (0 : Fin 3), by omega⟩ : Fin 32) p q := by
    funext a; apply Fin.ext
    match a with
    | ⟨0, _⟩ => show win0_8.index t (0 : Fin 3) * 1 + 1 * z.val = win0_8.index t (0 : Fin 3); omega
    | ⟨1, _⟩ => show win0_8.index t (1 : Fin 3) * 768 + 1 * p.val = p.val; omega
    | ⟨2, _⟩ => show win0_8.index t (2 : Fin 3) * 768 + 1 * q.val = q.val; omega
  rw [hemb]
  refine (shapeCast_ab_1ab_apply _ _ z p q).trans ?_
  have h0 := blockMat (V m c main_arg0) (iblk m c 0 t) ⟨win0_8.index t (0 : Fin 3), by omega⟩ (fun p q => by
    have hp := p.isLt; have hq := q.isLt
    show V m c main_arg0 (((cfg0.win 0).blk t).view.emb (ix3 (0 : Fin 1) p q)) = _
    refine congrArg (V m c main_arg0) (funext fun a => Fin.ext ?_)
    match a with
    | ⟨0, _⟩ => show win0_0.index t (0 : Fin 3) * 1 + 1 * 0 = win0_8.index t (0 : Fin 3); omega
    | ⟨1, _⟩ => show win0_0.index t (1 : Fin 3) * 768 + 1 * p.val = p.val; omega
    | ⟨2, _⟩ => show win0_0.index t (2 : Fin 3) * 768 + 1 * q.val = q.val; omega)
  have h1 := blockMat (V m c main_arg1) (iblk m c 1 t) ⟨win0_8.index t (0 : Fin 3), by omega⟩ (fun p q => by
    have hp := p.isLt; have hq := q.isLt
    show V m c main_arg1 (((cfg0.win 1).blk t).view.emb (ix3 (0 : Fin 1) p q)) = _
    refine congrArg (V m c main_arg1) (funext fun a => Fin.ext ?_)
    match a with
    | ⟨0, _⟩ => show win0_1.index t (0 : Fin 3) * 1 + 1 * 0 = win0_8.index t (0 : Fin 3); omega
    | ⟨1, _⟩ => show win0_1.index t (1 : Fin 3) * 768 + 1 * p.val = p.val; omega
    | ⟨2, _⟩ => show win0_1.index t (2 : Fin 3) * 768 + 1 * q.val = q.val; omega)
  have h2 : iblk m c 2 t = V m c main_v0 := funext fun j => congrArg (V m c main_v0) (funext fun a => Fin.ext (by
    have hj0 := (j 0).isLt; have hj1 := (j 1).isLt
    match a with
    | ⟨0, _⟩ => show win0_2.index t (0 : Fin 2) * 768 + 1 * (j 0).val = (j 0).val; omega
    | ⟨1, _⟩ => show win0_2.index t (1 : Fin 2) * 768 + 1 * (j 1).val = (j 1).val; omega))
  have h3 : iblk m c 3 t = V m c main_v3 := funext fun j => congrArg (V m c main_v3) (funext fun a => Fin.ext (by
    have hj0 := (j 0).isLt; have hj1 := (j 1).isLt
    match a with
    | ⟨0, _⟩ => show win0_3.index t (0 : Fin 2) * 1 + 1 * (j 0).val = (j 0).val; omega
    | ⟨1, _⟩ => show win0_3.index t (1 : Fin 2) * 768 + 1 * (j 1).val = (j 1).val; omega))
  have h4 : iblk m c 4 t = V m c main_v1 := funext fun j => congrArg (V m c main_v1) (funext fun a => Fin.ext (by
    have hj0 := (j 0).isLt; have hj1 := (j 1).isLt
    match a with
    | ⟨0, _⟩ => show win0_4.index t (0 : Fin 2) * 768 + 1 * (j 0).val = (j 0).val; omega
    | ⟨1, _⟩ => show win0_4.index t (1 : Fin 2) * 768 + 1 * (j 1).val = (j 1).val; omega))
  have h5 : iblk m c 5 t = V m c main_v4 := funext fun j => congrArg (V m c main_v4) (funext fun a => Fin.ext (by
    have hj0 := (j 0).isLt; have hj1 := (j 1).isLt
    match a with
    | ⟨0, _⟩ => show win0_5.index t (0 : Fin 2) * 1 + 1 * (j 0).val = (j 0).val; omega
    | ⟨1, _⟩ => show win0_5.index t (1 : Fin 2) * 768 + 1 * (j 1).val = (j 1).val; omega))
  have h6 : iblk m c 6 t = V m c main_v2 := funext fun j => congrArg (V m c main_v2) (funext fun a => Fin.ext (by
    have hj0 := (j 0).isLt; have hj1 := (j 1).isLt
    match a with
    | ⟨0, _⟩ => show win0_6.index t (0 : Fin 2) * 768 + 1 * (j 0).val = (j 0).val; omega
    | ⟨1, _⟩ => show win0_6.index t (1 : Fin 2) * 768 + 1 * (j 1).val = (j 1).val; omega))
  have h7 : iblk m c 7 t = V m c main_v5 := funext fun j => congrArg (V m c main_v5) (funext fun a => Fin.ext (by
    have hj0 := (j 0).isLt; have hj1 := (j 1).isLt
    match a with
    | ⟨0, _⟩ => show win0_7.index t (0 : Fin 2) * 1 + 1 * (j 0).val = (j 0).val; omega
    | ⟨1, _⟩ => show win0_7.index t (1 : Fin 2) * 768 + 1 * (j 1).val = (j 1).val; omega))
  rw [h0, h1, h2, h3, h4, h5, h6, h7]
  rfl

/-- An index of the array is in point t's output block iff each coordinate is in the block's range on its axis. -/
theorem mem_blk (t : Fin cfg0.N) (i : S32x768x768.Idx) :
    i ∈ ((cfg0.win 8).blk t).view.set ↔ ∀ a : Fin 3, win0_8.index t a * S1x768x768.size a ≤ (i a).val
      ∧ (i a).val < win0_8.index t a * S1x768x768.size a + S1x768x768.size a := by
  show i ∈ ((View.whole main_v6).slice (win0_8.rect t)).set ↔ _
  rw [View.set_slice_whole, Rect.mem_set_unit]
  exact Iff.rfl

/-- The 32 output blocks cover the array, so after the run it holds `whole` of the arrays the region found. -/
theorem final (c : Dev nD) : (dats m 0 c).arrAt 8 cfg0.N
    = whole (V m c main_arg0) (V m c main_arg1) (V m c main_v0) (V m c main_v3) (V m c main_v1) (V m c main_v4)
        (V m c main_v2) (V m c main_v5) :=
  (dats m 0 c).arrAt_eq_of_cover 8 _ (fun t _ => flushed_eq m c t) fun i => by
    obtain ⟨t, ht⟩ := idx_onto (i 0)
    refine ⟨t, flush0_8 t, ?_⟩
    rw [mem_blk]
    have q0 : win0_8.index t (0 : Fin 3) = (i 0).val := congrFun ht 0
    have q1 : win0_8.index t (1 : Fin 3) = 0 := congrFun ht 1
    have q2 : win0_8.index t (2 : Fin 3) = 0 := congrFun ht 2
    have h1 : (i 1).val < 768 := (i 1).isLt
    have h2 : (i 2).val < 768 := (i 2).isLt
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 768 ≤ (i 1).val ∧ (i 1).val < win0_8.index t (1 : Fin 3) * 768 + 768; omega
    | ⟨2, _⟩ => show win0_8.index t (2 : Fin 3) * 768 ≤ (i 2).val ∧ (i 2).val < win0_8.index t (2 : Fin 3) * 768 + 768; omega

/-- The host transposes each weight before the region. -/
theorem V_v0 (c : Dev nD) : (V m c main_v0 : S768x768.Idx → EReal)
    = transpose S768x768 [1, 0] (m ((c : Thread nD τ).loc main_arg2)) transposes_S768x768_S768x768_1_0 := by
  dsimp only [Gen.V, Gen.hostOps0]; after_results
theorem V_v1 (c : Dev nD) : (V m c main_v1 : S768x768.Idx → EReal)
    = transpose S768x768 [1, 0] (m ((c : Thread nD τ).loc main_arg4)) transposes_S768x768_S768x768_1_0 := by
  dsimp only [Gen.V, Gen.hostOps0]; after_results
theorem V_v2 (c : Dev nD) : (V m c main_v2 : S768x768.Idx → EReal)
    = transpose S768x768 [1, 0] (m ((c : Thread nD τ).loc main_arg6)) transposes_S768x768_S768x768_1_0 := by
  dsimp only [Gen.V, Gen.hostOps0]; after_results

/-- The host reshapes each bias to one row before the region. -/
theorem V_v3 (c : Dev nD) : (V m c main_v3 : S1x768.Idx → EReal)
    = shapeCast S1x768 (m ((c : Thread nD τ).loc main_arg3)) shapeCasts_S768_S1x768 := by
  dsimp only [Gen.V, Gen.hostOps0]; after_results; rfl
theorem V_v4 (c : Dev nD) : (V m c main_v4 : S1x768.Idx → EReal)
    = shapeCast S1x768 (m ((c : Thread nD τ).loc main_arg5)) shapeCasts_S768_S1x768 := by
  dsimp only [Gen.V, Gen.hostOps0]; after_results; rfl
theorem V_v5 (c : Dev nD) : (V m c main_v5 : S1x768.Idx → EReal)
    = shapeCast S1x768 (m ((c : Thread nD τ).loc main_arg7)) shapeCasts_S768_S1x768 := by
  dsimp only [Gen.V, Gen.hostOps0]; after_results; rfl

/-- The kernel's result as one function of the argument arrays: `whole` of the two stacks, the transposed weights
    and the bias rows. -/
def result (c : Dev nD) : S32x768x768.Idx → EReal :=
  whole (m ((c : Thread nD τ).loc main_arg0)) (m ((c : Thread nD τ).loc main_arg1))
    (transpose S768x768 [1, 0] (m ((c : Thread nD τ).loc main_arg2)) transposes_S768x768_S768x768_1_0)
    (shapeCast S1x768 (m ((c : Thread nD τ).loc main_arg3)) shapeCasts_S768_S1x768)
    (transpose S768x768 [1, 0] (m ((c : Thread nD τ).loc main_arg4)) transposes_S768x768_S768x768_1_0)
    (shapeCast S1x768 (m ((c : Thread nD τ).loc main_arg5)) shapeCasts_S768_S1x768)
    (transpose S768x768 [1, 0] (m ((c : Thread nD τ).loc main_arg6)) transposes_S768x768_S768x768_1_0)
    (shapeCast S1x768 (m ((c : Thread nD τ).loc main_arg7)) shapeCasts_S768_S1x768)

theorem final_result (c : Dev nD) : (dats m 0 c).arrAt 8 cfg0.N = result m c := by
  rw [final, V_main_arg0, V_main_arg1, V_v0, V_v1, V_v2, V_v3, V_v4, V_v5]
  rfl

/-- The kernel's run, read: the result array ends at `result`, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_result m c), (h c).2⟩) (run_blocks m ρ)

end Cert.Coatt.KernelArray

end
-- ==== Proof.LibStackWeight.lean ====
/-
  A stack of matrices times ONE matrix along the last axes of both, read at an index.

  `dotGeneral_stackW_apply`: for a stack A of shape [G, m, k] and a matrix B of shape [n, k], the host's dot_general
  that contracts A's last axis with B's last axis and has no batch axis (a linear layer `x @ W.T` applied to every
  member of a stack: einsum "gmk,nk->gmn") is, at (g, a, b) and at the ideal values, the sum over c of A(g, a, c) · B(b, c).
  Generic in G, m, n, k and in the operands' formats; beside the library's product of two stacks matrix by matrix.
-/
import Idealize.ShloMosaic.PureOps.Ideal.Laws
import Idealize.ShloMosaic.Lib.ValueIdx

noncomputable section

open scoped BigOperators

namespace Cert.LibStackWeight

open Idealize.ShloMosaic Idealize.ShloMosaic.ValueIdx

/-- A stack of matrices [G, m, k] times one matrix [n, k] along the last axes of both (no batch axis), read at an
    index: the sum over the contracted coordinate of the stack's entry times the matrix's entry in row b. -/
theorem dotGeneral_stackW_apply {G m n k : Nat} {φ₁ φ₂ : FTy}
    (w : DotDims.WF ⟨3, ![G, m, k]⟩ ⟨2, ![n, k]⟩ ⟨3, ![G, m, n]⟩ [2] [1] [0, 1] [0] [] [])
    (prec : Option ContractPrecision) (A : FVec Ideal ⟨3, ![G, m, k]⟩ φ₁) (B : FVec Ideal ⟨2, ![n, k]⟩ φ₂)
    (g : Fin G) (a : Fin m) (b : Fin n) :
    Host.dotGeneral (⟨[2], [1], [0, 1], [0], [], [], w⟩ : DotDims _ _ _) prec A B (ix3 g a b)
      = ∑ c : Fin k, A (ix3 g a c) * B (ix2 b c) := by
  show FloatOps.dotGeneral _ prec _ A B (ix3 g a b) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c3 := contrEquiv1_symm_val
    (⟨[2], [1], [0, 1], [0], [], [], w⟩ : DotDims ⟨3, ![G, m, k]⟩ ⟨2, ![n, k]⟩ ⟨3, ![G, m, n]⟩) k rfl rfl c
  have l3 : (⟨[2], [1], [0, 1], [0], [], [], w⟩ : DotDims ⟨3, ![G, m, k]⟩ ⟨2, ![n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![G, m, k]⟩ ⟨2, ![n, k]⟩ ⟨3, ![G, m, n]⟩).rhsIdx (ix3 g a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c3
  rw [l3, r3]

end Cert.LibStackWeight

end
-- ==== Proof.RefMember.lean ====
/-
  The reference's side of one batch member: the reference computes over the whole stack of 32 members with host
  operations that carry the batch axis along; at member g its result is `Coatt.member` of member g of the two
  stacked inputs, of the three weights transposed, and of the three biases as one-row matrices.
-/
import proofs.«167463_j70342974373949_1_alg».proof.Proof.Spec
import proofs.«167463_j70342974373949_1_alg».proof.Proof.LibStackWeight
import proofs.«167463_j70342974373949_1_alg».proof.Proof.Gen.ReferenceIdeal.Run
import Idealize.ShloMosaic.Lib.StackMember
import Idealize.ShloMosaic.Lib.ValueLayout
import Idealize.ShloMosaic.Lib.IdealHost
import Idealize.ShloMosaic.PureOps.Ideal.Laws

noncomputable section

open scoped BigOperators

namespace Cert.Coatt.RefSide

open Idealize.ShloMosaic Idealize.ShloMosaic.ValueIdx Idealize.ShloMosaic.StackMember Idealize.ShloMosaic.StableHlo
open Cert.ReferenceIdeal Cert.ReferenceIdeal.Gen Cert.ReferenceIdeal.Value Cert.Coatt

/-- Member g of a stack of transposed matrices is the transpose of member g. -/
theorem member_tr (X : FVec Ideal S32x768x768 .f32) (g : Fin 32)
    (h : S32x768x768.Transposes [0, 2, 1] S32x768x768) :
    memberAt (d := ![768, 768]) (transpose S32x768x768 [0, 2, 1] X h) g = tr (memberAt (d := ![768, 768]) X g) := by
  funext j
  obtain ⟨p, q, rfl⟩ : ∃ (p : Fin 768) (q : Fin 768), j = ix2 p q := ⟨j 0, j 1, eq_ix2 j⟩
  rw [memberAt_apply, cons_ix2]
  show _ = X (Fin.cons g (ix2 q p))
  rw [cons_ix2]
  exact transpose_ix3_021_apply X h g p q

/-- Member g of the product of two stacks, matrix by matrix, is the product of the two members. -/
theorem member_mm (X Y : FVec Ideal S32x768x768 .f32) (g : Fin 32) :
    memberAt (d := ![768, 768]) (Host.dotGeneral dot_S32x768x768_S32x768x768_S32x768x768_2_1_1_2_0_0 none X Y) g
      = mm (memberAt (d := ![768, 768]) X g) (memberAt (d := ![768, 768]) Y g) := by
  funext j
  obtain ⟨p, q, rfl⟩ : ∃ (p : Fin 768) (q : Fin 768), j = ix2 p q := ⟨j 0, j 1, eq_ix2 j⟩
  rw [memberAt_apply, cons_ix2]
  refine (dotGeneral_stack_apply dot_S32x768x768_S32x768x768_S32x768x768_2_1_1_2_0_0_wf none X Y g p q).trans ?_
  refine Finset.sum_congr rfl fun c _ => ?_
  show X (ix3 g p c) * Y (ix3 g c q) = X (Fin.cons g (ix2 p c)) * Y (Fin.cons g (ix2 c q))
  rw [cons_ix2, cons_ix2]

/-- Member g of a stack times a weight, along the last axes of both, is member g times the transposed weight. -/
theorem member_mmW (X : FVec Ideal S32x768x768 .f32) (W : FVec Ideal S768x768 .f32) (g : Fin 32)
    (hT : (⟨2, ![768, 768]⟩ : Shape).Transposes [1, 0] ⟨2, ![768, 768]⟩) :
    memberAt (d := ![768, 768]) (Host.dotGeneral dot_S32x768x768_S768x768_S32x768x768_2_1_01_0_n_n none X W) g
      = mm (memberAt (d := ![768, 768]) X g) (transpose ⟨2, ![768, 768]⟩ [1, 0] W hT) := by
  funext j
  obtain ⟨p, q, rfl⟩ : ∃ (p : Fin 768) (q : Fin 768), j = ix2 p q := ⟨j 0, j 1, eq_ix2 j⟩
  rw [memberAt_apply, cons_ix2]
  refine (LibStackWeight.dotGeneral_stackW_apply dot_S32x768x768_S768x768_S32x768x768_2_1_01_0_n_n_wf none X W g p q).trans ?_
  refine Finset.sum_congr rfl fun c _ => ?_
  show X (ix3 g p c) * W (ix2 q c) = X (Fin.cons g (ix2 p c)) * transpose ⟨2, ![768, 768]⟩ [1, 0] W hT (ix2 c q)
  rw [cons_ix2, transpose_ix2_apply]

/-- The bias vector broadcast over the whole stack reads, at (g, p, q), the one-row bias matrix at (0, q). -/
theorem bias_apply (b : FVec Ideal S768 .f32) (g : Fin 32) (p q : Fin 768)
    (h1 : S768.BroadcastsInDim S1x1x768 (![2] : Fin 1 → Fin S1x1x768.rank))
    (h2 : S1x1x768.BroadcastsInDim S32x768x768 (![0, 1, 2] : Fin 3 → Fin S32x768x768.rank))
    (hR : (⟨1, ![768]⟩ : Shape).ShapeCasts ⟨2, ![1, 768]⟩) :
    broadcastInDim S32x768x768 ![0, 1, 2] h2 (broadcastInDim S1x1x768 ![2] h1 b) (ix3 g p q)
      = shapeCast ⟨2, ![1, 768]⟩ b hR (ix2 (0 : Fin 1) q) := by
  rw [shapeCast_a_1a_apply]
  refine (broadcastInDim_apply ![0, 1, 2] h2 _ (ix3 g p q) (ix3 (0 : Fin 1) (0 : Fin 1) q) ?_).trans ?_
  · intro a
    match a with
    | ⟨0, _⟩ => rfl
    | ⟨1, _⟩ => rfl
    | ⟨2, _⟩ => rfl
  · exact broadcastInDim_apply ![2] h1 b (ix3 (0 : Fin 1) (0 : Fin 1) q) (ix1 q) (by
      intro a
      match a with
      | ⟨0, _⟩ => rfl)

/-- Member g of a linear layer over the stack is the linear layer of member g, with the weight transposed and the
    bias as a one-row matrix. -/
theorem member_lin (X : FVec Ideal S32x768x768 .f32) (W : FVec Ideal S768x768 .f32) (b : FVec Ideal S768 .f32) (g : Fin 32)
    (h1 : S768.BroadcastsInDim S1x1x768 (![2] : Fin 1 → Fin S1x1x768.rank))
    (h2 : S1x1x768.BroadcastsInDim S32x768x768 (![0, 1, 2] : Fin 3 → Fin S32x768x768.rank))
    (hT : (⟨2, ![768, 768]⟩ : Shape).Transposes [1, 0] ⟨2, ![768, 768]⟩)
    (hR : (⟨1, ![768]⟩ : Shape).ShapeCasts ⟨2, ![1, 768]⟩) :
    memberAt (d := ![768, 768]) (addf (Host.dotGeneral dot_S32x768x768_S768x768_S32x768x768_2_1_01_0_n_n none X W)
        (broadcastInDim S32x768x768 ![0, 1, 2] h2 (broadcastInDim S1x1x768 ![2] h1 b))) g
      = lin (memberAt (d := ![768, 768]) X g) (transpose ⟨2, ![768, 768]⟩ [1, 0] W hT) (shapeCast ⟨2, ![1, 768]⟩ b hR) := by
  rw [memberAt_addf, member_mmW X W g hT]
  funext j
  obtain ⟨p, q, rfl⟩ : ∃ (p : Fin 768) (q : Fin 768), j = ix2 p q := ⟨j 0, j 1, eq_ix2 j⟩
  show mm _ _ (ix2 p q) + memberAt (d := ![768, 768]) _ g (ix2 p q) = mm _ _ (ix2 p q) + shapeCast ⟨2, ![1, 768]⟩ b hR (ix2 (0 : Fin 1) q)
  rw [memberAt_apply, cons_ix2, bias_apply b g p q h1 h2 hR]

/-- A per-row value of the stack ([32, 768]) broadcast along each row reads, at (g, p, q), the value of row (g, p). -/
theorem rowBcast_apply {α : Type} (M : S32x768.Idx → α) (g : Fin 32) (p q : Fin 768)
    (hb2 : S32x768.BroadcastsInDim S32x768x1 (![0, 1] : Fin 2 → Fin S32x768x1.rank))
    (hb3 : S32x768x1.BroadcastsInDim S32x768x768 (![0, 1, 2] : Fin 3 → Fin S32x768x768.rank)) :
    broadcastInDim S32x768x768 ![0, 1, 2] hb3 (broadcastInDim S32x768x1 ![0, 1] hb2 M) (ix3 g p q) = M (ix2 g p) := by
  refine (broadcastInDim_apply ![0, 1, 2] hb3 _ (ix3 g p q) (ix3 g p (0 : Fin 1)) ?_).trans ?_
  · intro a
    match a with
    | ⟨0, _⟩ => rfl
    | ⟨1, _⟩ => rfl
    | ⟨2, _⟩ => rfl
  · exact broadcastInDim_apply ![0, 1] hb2 M (ix3 g p (0 : Fin 1)) (ix2 g p) (by
      intro a
      match a with
      | ⟨0, _⟩ => rfl
      | ⟨1, _⟩ => rfl)

/-- The row index (g, p) with the column k put back is (g, p, k). -/
theorem lift_row (h : S32x768x768.Reduces [2] S32x768) (g : Fin 32) (p : Fin 768) (k : Fin (S32x768x768.size 2)) :
    h.lift (ix2 g p) k = ix3 g p (⟨k.val, k.isLt⟩ : Fin 768) := by
  funext c; apply Fin.ext
  match c with
  | ⟨0, _⟩ => rfl
  | ⟨1, _⟩ => rfl
  | ⟨2, _⟩ => rfl

/-- The f32 pattern of −∞ is the bottom element. -/
theorem ofBits_negInf_f32 : Ideal.ofBits .f32 0xFF800000#32 = (⊥ : EReal) := by simp [Ideal.ofBits, Ideal.ieee]

/-- The host's exponential at an index is the exponential of the element. -/
theorem hostExp_apply {s : Shape} {φ : FTy} (a : FVec Ideal s φ) (i : s.Idx) : Host.exp a i = Ideal.exp (a i) := rfl

/-- The maximum of a row of the stack from −∞ is the row maximum of the member. -/
theorem hostReduceMax_row (X : FVec Ideal S32x768x768 .f32) (g : Fin 32) (p : Fin 768)
    (hr : S32x768x768.ReducesTo [2] S32x768) (hu : 0 < S_.numel) :
    Host.reduce FloatOps.maximumf X (constant (F := Ideal) S_ .f32 0xFF800000#32) hr hu (ix2 g p)
      = rowMax (memberAt (d := ![768, 768]) X g) p := by
  have h : S32x768x768.Reduces [2] S32x768 := ⟨hr.1, Nat.two_pos, hr.2⟩
  rw [Host.reduce_eq_fold_single FloatOps.maximumf X _ hr h hu, constant_apply, ofBits_negInf_f32]
  have hf : (X ∘ h.lift (ix2 g p)) = fun k : Fin 768 => memberAt (d := ![768, 768]) X g (ix2 p k) := by
    funext k
    show X (h.lift (ix2 g p) k) = X (Fin.cons g (ix2 p (⟨k.val, k.isLt⟩ : Fin 768)))
    rw [lift_row h g p k, cons_ix2]
  rw [hf]
  rfl

/-- Member g of the shifted exponential over the stack is the shifted exponential of member g. -/
theorem member_expShift (X : FVec Ideal S32x768x768 .f32) (g : Fin 32)
    (hb0 : S_.BroadcastsInDim S32x768 (![] : Fin 0 → Fin S32x768.rank))
    (hb2 : S32x768.BroadcastsInDim S32x768x1 (![0, 1] : Fin 2 → Fin S32x768x1.rank))
    (hb3 : S32x768x1.BroadcastsInDim S32x768x768 (![0, 1, 2] : Fin 3 → Fin S32x768x768.rank))
    (hr : S32x768x768.ReducesTo [2] S32x768) (hu : 0 < S_.numel) :
    memberAt (d := ![768, 768]) (Host.exp (subf X (broadcastInDim S32x768x768 ![0, 1, 2] hb3
        (broadcastInDim S32x768x1 ![0, 1] hb2 (maximumf (broadcastInDim S32x768 ![] hb0 (constant S_ .f32 0xFF800000#32))
          (Host.reduce FloatOps.maximumf X (constant S_ .f32 0xFF800000#32) hr hu)))))) g
      = expShift (memberAt (d := ![768, 768]) X g) := by
  funext j
  obtain ⟨p, q, rfl⟩ : ∃ (p : Fin 768) (q : Fin 768), j = ix2 p q := ⟨j 0, j 1, eq_ix2 j⟩
  rw [memberAt_apply, cons_ix2, hostExp_apply, subf_apply, rowBcast_apply, maximumf_apply,
    broadcastInDim_scalar_apply, constant_apply, ofBits_negInf_f32, max_bot_left, hostReduceMax_row X g p hr hu]
  show _ = Ideal.exp (X (Fin.cons g (ix2 p q)) - rowMax (memberAt (d := ![768, 768]) X g) p)
  rw [cons_ix2]

/-- Member g of the stack divided by its row sums is member g divided by its row sums. -/
theorem member_rowNorm (E : FVec Ideal S32x768x768 .f32) (g : Fin 32)
    (hb2 : S32x768.BroadcastsInDim S32x768x1 (![0, 1] : Fin 2 → Fin S32x768x1.rank))
    (hb3 : S32x768x1.BroadcastsInDim S32x768x768 (![0, 1, 2] : Fin 3 → Fin S32x768x768.rank))
    (hr : S32x768x768.ReducesTo [2] S32x768) (hu : 0 < S_.numel) :
    memberAt (d := ![768, 768]) (Host.divf E (broadcastInDim S32x768x768 ![0, 1, 2] hb3
        (broadcastInDim S32x768x1 ![0, 1] hb2 (Host.reduceAdd E (constant S_ .f32 0x00000000#32) hr hu)))) g
      = rowNorm (memberAt (d := ![768, 768]) E g) := by
  have h : S32x768x768.Reduces [2] S32x768 := ⟨hr.1, Nat.two_pos, hr.2⟩
  funext j
  obtain ⟨p, q, rfl⟩ : ∃ (p : Fin 768) (q : Fin 768), j = ix2 p q := ⟨j 0, j 1, eq_ix2 j⟩
  rw [memberAt_apply, cons_ix2, hostDivf_apply, rowBcast_apply, hostReduceAdd_apply, Ideal.hostReduceAdd_single hr h,
    constant_apply, Ideal.ofBits_zero_f32, zero_add]
  show _ = Ideal.div (E (Fin.cons g (ix2 p q))) (∑ k : Fin 768, E (Fin.cons g (ix2 p k)))
  rw [cons_ix2]
  refine congrArg (Ideal.div (E (ix3 g p q))) (Finset.sum_congr rfl fun k _ => ?_)
  rw [lift_row h g p k]
  exact congrArg E (cons_ix2 g p (⟨k.val, k.isLt⟩ : Fin 768)).symm

/-! ## The reference's named sub-terms, member by member -/

section Chain
variable (V0 : Valuation τ sig (Elt Ideal)) (g : Fin 32)
  (hT : (⟨2, ![768, 768]⟩ : Shape).Transposes [1, 0] ⟨2, ![768, 768]⟩)
  (hR : (⟨1, ![768]⟩ : Shape).ShapeCasts ⟨2, ![1, 768]⟩)

/-- Member g of the first input stack. -/
abbrev x0 : Mat := memberAt (d := ![768, 768]) (V0 (Proc.devRef .tc main_arg0)) g
/-- Member g of the second input stack. -/
abbrev x1 : Mat := memberAt (d := ![768, 768]) (V0 (Proc.devRef .tc main_arg1)) g
/-- The three weights transposed and the three biases as rows. -/
abbrev w2 : Mat := transpose ⟨2, ![768, 768]⟩ [1, 0] (V0 (Proc.devRef .tc main_arg2)) hT
abbrev b3 : Row := shapeCast ⟨2, ![1, 768]⟩ (V0 (Proc.devRef .tc main_arg3)) hR
abbrev w4 : Mat := transpose ⟨2, ![768, 768]⟩ [1, 0] (V0 (Proc.devRef .tc main_arg4)) hT
abbrev b5 : Row := shapeCast ⟨2, ![1, 768]⟩ (V0 (Proc.devRef .tc main_arg5)) hR
abbrev w6 : Mat := transpose ⟨2, ![768, 768]⟩ [1, 0] (V0 (Proc.devRef .tc main_arg6)) hT
abbrev b7 : Row := shapeCast ⟨2, ![1, 768]⟩ (V0 (Proc.devRef .tc main_arg7)) hR

/-- The projected first features. -/
theorem m_v8 : memberAt (d := ![768, 768]) (res_main_v8 (F := Ideal) V0) g = proj (x0 V0 g) (w2 V0 hT) (b3 V0 hR) := by
  unfold res_main_v8
  rw [member_tr, member_lin _ _ _ g _ _ hT hR]
  rfl

/-- The projected second features. -/
theorem m_v9 : memberAt (d := ![768, 768]) (res_main_v9 (F := Ideal) V0) g = proj (x1 V0 g) (w2 V0 hT) (b3 V0 hR) := by
  unfold res_main_v9
  rw [member_tr, member_lin _ _ _ g _ _ hT hR]
  rfl

/-- The co-attention scores. -/
theorem m_v10 : memberAt (d := ![768, 768]) (res_main_v10 (F := Ideal) V0) g
    = mm (proj (x0 V0 g) (w2 V0 hT) (b3 V0 hR)) (proj (x1 V0 g) (w2 V0 hT) (b3 V0 hR)) := by
  unfold res_main_v10
  rw [member_mm, m_v8 V0 g hT hR, m_v9 V0 g hT hR]

/-- Their shifted exponential. -/
theorem m_v17 : memberAt (d := ![768, 768]) (res_main_v17 (F := Ideal) V0) g
    = expShift (mm (proj (x0 V0 g) (w2 V0 hT) (b3 V0 hR)) (proj (x1 V0 g) (w2 V0 hT) (b3 V0 hR))) := by
  unfold res_main_v17
  rw [member_expShift, m_v10 V0 g hT hR]

/-- The co-attention block. -/
theorem m_v28 : memberAt (d := ![768, 768]) (res_main_v28 (F := Ideal) V0) g
    = coBlock (proj (x0 V0 g) (w2 V0 hT) (b3 V0 hR)) (proj (x1 V0 g) (w2 V0 hT) (b3 V0 hR)) (w2 V0 hT) (b3 V0 hR) := by
  unfold res_main_v28
  rw [memberAt_addf, member_lin _ _ _ g _ _ hT hR, member_tr, member_mm, member_rowNorm, m_v17 V0 g hT hR,
    m_v9 V0 g hT hR, m_v8 V0 g hT hR]
  rfl

/-- The co-attention block's result on member g, named. -/
abbrev co : Mat := coBlock (proj (x0 V0 g) (w2 V0 hT) (b3 V0 hR)) (proj (x1 V0 g) (w2 V0 hT) (b3 V0 hR)) (w2 V0 hT) (b3 V0 hR)

/-- The projected features of the co-attention block's result. -/
theorem m_v33 : memberAt (d := ![768, 768]) (res_main_v33 (F := Ideal) V0) g = proj (co V0 g hT hR) (w4 V0 hT) (b5 V0 hR) := by
  unfold res_main_v33
  rw [member_tr, member_lin _ _ _ g _ _ hT hR, m_v28 V0 g hT hR]
  rfl

/-- The self-attention scores. -/
theorem m_v34 : memberAt (d := ![768, 768]) (res_main_v34 (F := Ideal) V0) g
    = mm (proj (co V0 g hT hR) (w4 V0 hT) (b5 V0 hR)) (proj (co V0 g hT hR) (w4 V0 hT) (b5 V0 hR)) := by
  unfold res_main_v34
  rw [member_mm, m_v33 V0 g hT hR]

/-- Their shifted exponential. -/
theorem m_v41 : memberAt (d := ![768, 768]) (res_main_v41 (F := Ideal) V0) g
    = expShift (mm (proj (co V0 g hT hR) (w4 V0 hT) (b5 V0 hR)) (proj (co V0 g hT hR) (w4 V0 hT) (b5 V0 hR))) := by
  unfold res_main_v41
  rw [member_expShift, m_v34 V0 g hT hR]

/-- The self-attention block. -/
theorem m_v52 : memberAt (d := ![768, 768]) (res_main_v52 (F := Ideal) V0) g = saBlock (co V0 g hT hR) (w4 V0 hT) (b5 V0 hR) := by
  unfold res_main_v52
  rw [memberAt_addf, member_lin _ _ _ g _ _ hT hR, member_tr, member_mm, member_rowNorm, m_v41 V0 g hT hR,
    m_v28 V0 g hT hR]
  rfl

/-- The self-attention block's result on member g, named. -/
abbrev sa : Mat := saBlock (co V0 g hT hR) (w4 V0 hT) (b5 V0 hR)

/-- The cross-attention scores. -/
theorem m_v58 : memberAt (d := ![768, 768]) (res_main_v58 (F := Ideal) V0) g
    = mm (proj (sa V0 g hT hR) (w6 V0 hT) (b7 V0 hR)) (proj (x1 V0 g) (w2 V0 hT) (b3 V0 hR)) := by
  unfold res_main_v58
  rw [member_mm, member_tr, member_lin _ _ _ g _ _ hT hR, m_v52 V0 g hT hR, m_v9 V0 g hT hR]
  rfl

/-- Their shifted exponential. -/
theorem m_v65 : memberAt (d := ![768, 768]) (res_main_v65 (F := Ideal) V0) g
    = expShift (mm (proj (sa V0 g hT hR) (w6 V0 hT) (b7 V0 hR)) (proj (x1 V0 g) (w2 V0 hT) (b3 V0 hR))) := by
  unfold res_main_v65
  rw [member_expShift, m_v58 V0 g hT hR]

end Chain

/-- The reference's result as the composed term of its run, over any contents of the argument arrays. -/
def refOut {F : FTy → Type} [FloatOps F] (V0 : Valuation τ sig (Elt F)) : FVec F S32x768x768 .f32 :=
  addf (addf (Host.dotGeneral dot_S32x768x768_S768x768_S32x768x768_2_1_01_0_n_n none (transpose S32x768x768 [0, 2, 1] (Host.dotGeneral dot_S32x768x768_S32x768x768_S32x768x768_2_1_1_2_0_0 none (Host.divf (res_main_v65 V0) (broadcastInDim S32x768x768 ![0, 1, 2] bcast_S32x768x1_S32x768x768_0_1_2 (broadcastInDim S32x768x1 ![0, 1] bcast_S32x768_S32x768x1_0_1 (Host.reduceAdd (res_main_v65 V0) (constant S_ .f32 0x00000000#32) reducesTo_S32x768x768_S32x768_d2 h_S_)))) (res_main_v9 V0)) transposes_S32x768x768_S32x768x768_0_2_1) (V0 (Proc.devRef .tc main_arg6))) (broadcastInDim S32x768x768 ![0, 1, 2] bcast_S1x1x768_S32x768x768_0_1_2 (broadcastInDim S1x1x768 ![2] bcast_S768_S1x1x768_2 (V0 (Proc.devRef .tc main_arg7))))) (res_main_v52 V0)

/-- Member g of the reference's result is the member computation on member g of the inputs. -/
theorem ref_member (V0 : Valuation τ sig (Elt Ideal)) (g : Fin 32)
    (hT : (⟨2, ![768, 768]⟩ : Shape).Transposes [1, 0] ⟨2, ![768, 768]⟩)
    (hR : (⟨1, ![768]⟩ : Shape).ShapeCasts ⟨2, ![1, 768]⟩) :
    memberAt (d := ![768, 768]) (refOut (F := Ideal) V0) g
      = member (memberAt (d := ![768, 768]) (V0 (Proc.devRef .tc main_arg0)) g)
          (memberAt (d := ![768, 768]) (V0 (Proc.devRef .tc main_arg1)) g)
          (transpose ⟨2, ![768, 768]⟩ [1, 0] (V0 (Proc.devRef .tc main_arg2)) hT)
          (shapeCast ⟨2, ![1, 768]⟩ (V0 (Proc.devRef .tc main_arg3)) hR)
          (transpose ⟨2, ![768, 768]⟩ [1, 0] (V0 (Proc.devRef .tc main_arg4)) hT)
          (shapeCast ⟨2, ![1, 768]⟩ (V0 (Proc.devRef .tc main_arg5)) hR)
          (transpose ⟨2, ![768, 768]⟩ [1, 0] (V0 (Proc.devRef .tc main_arg6)) hT)
          (shapeCast ⟨2, ![1, 768]⟩ (V0 (Proc.devRef .tc main_arg7)) hR) := by
  unfold refOut
  rw [memberAt_addf, member_lin _ _ _ g _ _ hT hR, member_tr, member_mm, member_rowNorm, m_v65 V0 g hT hR,
    m_v9 V0 g hT hR, m_v52 V0 g hT hR]
  rfl

end Cert.Coatt.RefSide

end
-- ==== Proof.RefArray.lean ====
/-
  The reference's result as the whole array: every batch member of the reference's composed term is the member
  computation on that member of its inputs, so the term is `Coatt.whole` of the argument arrays.
-/
import proofs.«167463_j70342974373949_1_alg».proof.Proof.Whole
import proofs.«167463_j70342974373949_1_alg».proof.Proof.RefMember

noncomputable section

namespace Cert.Coatt.RefSide

open Idealize.ShloMosaic Idealize.ShloMosaic.ValueIdx Idealize.ShloMosaic.StackMember Idealize.ShloMosaic.StableHlo
open Cert.ReferenceIdeal Cert.ReferenceIdeal.Gen Cert.ReferenceIdeal.Value Cert.Coatt

/-- Two stacks with equal members are equal: the reference's term is `whole` of its arguments. -/
theorem refOut_eq_whole (V0 : Valuation τ sig (Elt Ideal))
    (hT : (⟨2, ![768, 768]⟩ : Shape).Transposes [1, 0] ⟨2, ![768, 768]⟩)
    (hR : (⟨1, ![768]⟩ : Shape).ShapeCasts ⟨2, ![1, 768]⟩) :
    refOut (F := Ideal) V0
      = whole (V0 (Proc.devRef .tc main_arg0)) (V0 (Proc.devRef .tc main_arg1))
          (transpose ⟨2, ![768, 768]⟩ [1, 0] (V0 (Proc.devRef .tc main_arg2)) hT)
          (shapeCast ⟨2, ![1, 768]⟩ (V0 (Proc.devRef .tc main_arg3)) hR)
          (transpose ⟨2, ![768, 768]⟩ [1, 0] (V0 (Proc.devRef .tc main_arg4)) hT)
          (shapeCast ⟨2, ![1, 768]⟩ (V0 (Proc.devRef .tc main_arg5)) hR)
          (transpose ⟨2, ![768, 768]⟩ [1, 0] (V0 (Proc.devRef .tc main_arg6)) hT)
          (shapeCast ⟨2, ![1, 768]⟩ (V0 (Proc.devRef .tc main_arg7)) hR) :=
  ext_memberAt (d := ![768, 768]) fun g => (ref_member V0 g hT hR).trans (memberAt_whole _ _ _ _ _ _ _ _ g).symm

end Cert.Coatt.RefSide

end
-- ==== Proof.lean ====
/-
  The co-attention kernel against its jnp reference, at the ideal reading (every float an extended real, every
  operation exact, a change of float format the identity).

  Both programs compute, for each of 32 batch members independently, the same chain on 768 × 768 matrices: two linear
  layers transposed, the scores' row softmax, an attention product, a linear layer with a residual — three times
  over (co-attention, self-attention, cross-attention). `Coatt.member` (Proof/Spec.lean) states that chain entry by
  entry. The kernel runs once per member on a grid of 32 points, with the weights transposed and the biases reshaped
  to rows by the host beforehand; its body's one stored value is `member` of the blocks it loads
  (Proof/KernelMember.lean), and the 32 blocks tile the output (Proof/KernelArray.lean). The reference works on the
  whole stack with host operations that carry the batch axis along; at each member its composed term is `member` of
  that member of its inputs (Proof/RefMember.lean), so the term is the same whole array (Proof/RefArray.lean). Each
  operation of either program, read at an entry, is literally the definition's expression there; beyond re-indexing a
  sum or a maximum along one axis the only laws used are 0 + x = x (a product or sum started from zero) and
  max ⊥ x = x (the reference's second maximum with minus infinity), which hold on all extended reals, so the
  precondition is never opened.

  The three frames are the generated frame runs (the reference's is its generated run with the result dropped); the
  idealization rewrote nothing, so `preserves` is trivial.
-/
import proofs.«167463_j70342974373949_1_alg».proof.Defs
import proofs.«167463_j70342974373949_1_alg».proof.Proof.Gen.Kernel
import proofs.«167463_j70342974373949_1_alg».proof.Proof.Gen.Kernel.Skeleton
import proofs.«167463_j70342974373949_1_alg».proof.Proof.Gen.Kernel.Launch
import proofs.«167463_j70342974373949_1_alg».proof.Proof.Gen.Kernel.Points
import proofs.«167463_j70342974373949_1_alg».proof.Proof.Gen.Kernel.Frame
import proofs.«167463_j70342974373949_1_alg».proof.Proof.Gen.KernelIdeal
import proofs.«167463_j70342974373949_1_alg».proof.Proof.Gen.KernelIdeal.Skeleton
import proofs.«167463_j70342974373949_1_alg».proof.Proof.Gen.KernelIdeal.Launch
import proofs.«167463_j70342974373949_1_alg».proof.Proof.Gen.KernelIdeal.Points
import proofs.«167463_j70342974373949_1_alg».proof.Proof.Gen.KernelIdeal.Frame
import proofs.«167463_j70342974373949_1_alg».proof.Proof.Gen.ReferenceIdeal
import proofs.«167463_j70342974373949_1_alg».proof.Proof.Gen.Pre_finite_inputs
import proofs.«167463_j70342974373949_1_alg».proof.Proof.Gen.KernelIdeal.Value
import proofs.«167463_j70342974373949_1_alg».proof.Proof.Gen.ReferenceIdeal.Run
import proofs.«167463_j70342974373949_1_alg».proof.Proof.KernelArray
import proofs.«167463_j70342974373949_1_alg».proof.Proof.RefArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's output array ends at `whole` of its arguments (the transposed weights and bias rows as the host
    prepared them), and the reference's composed term is `whole` of the same arrays. -/
theorem algebraic : Cert.algebraic_KernelIdeal_ReferenceIdeal := by
  intro m ρ m' ρ' _ hagree
  refine ⟨fun c => Cert.Coatt.KernelArray.result m c, Cert.Coatt.KernelArray.run m ρ, ?_⟩
  refine (θ_run Cert.ReferenceIdeal.defs _ _).mono (fun _ h c => ⟨(h c).1.trans ?_, (h c).2⟩)
    (Cert.ReferenceIdeal.Value.run (F := Ideal) m' ρ')
  refine (Cert.Coatt.RefSide.refOut_eq_whole (StableHlo.launchContents m' c)
    Cert.KernelIdeal.Facts₀.transposes_S768x768_S768x768_1_0 Cert.KernelIdeal.Facts₀.shapeCasts_S768_S1x768).trans ?_
  obtain ⟨h0, h1, h2, h3, h4, h5, h6, h7⟩ := hagree c
  have e0 : StableHlo.launchContents m' c (Proc.devRef .tc Cert.ReferenceIdeal.main_arg0) = _ := h0
  have e1 : StableHlo.launchContents m' c (Proc.devRef .tc Cert.ReferenceIdeal.main_arg1) = _ := h1
  have e2 : StableHlo.launchContents m' c (Proc.devRef .tc Cert.ReferenceIdeal.main_arg2) = _ := h2
  have e3 : StableHlo.launchContents m' c (Proc.devRef .tc Cert.ReferenceIdeal.main_arg3) = _ := h3
  have e4 : StableHlo.launchContents m' c (Proc.devRef .tc Cert.ReferenceIdeal.main_arg4) = _ := h4
  have e5 : StableHlo.launchContents m' c (Proc.devRef .tc Cert.ReferenceIdeal.main_arg5) = _ := h5
  have e6 : StableHlo.launchContents m' c (Proc.devRef .tc Cert.ReferenceIdeal.main_arg6) = _ := h6
  have e7 : StableHlo.launchContents m' c (Proc.devRef .tc Cert.ReferenceIdeal.main_arg7) = _ := h7
  rw [e0, e1, e2, e3, e4, e5, e6, e7]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
